-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S32x256x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x4096x128 : Shape := ⟨4, ![2, 16, 4096, 128]⟩
abbrev S256x128 : Shape := ⟨2, ![256, 128]⟩
abbrev S_ : Shape := ⟨0, ![]⟩

class Facts : Prop where
  bcast_S_S2x16x4096x128 : S_.BroadcastsInDim S2x16x4096x128 (![] : Fin 0 → Fin S2x16x4096x128.rank)
  reducesTo_S2x16x4096x128_S_d0_1_2_3 : S2x16x4096x128.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S2x16x4096x128 .f32) (main_arg1 : FVec F S2x16x4096x128 .f32) (main_arg2 : FVec F S256x128 .f32) : IVec S_ 1 :=
  let main_v0 : FVec F S2x16x4096x128 .f32 := Host.absf main_arg0
  let main_cst : FVec F S_ .f32 := constant S_ .f32 0x7F800000#32
  let main_v1 : FVec F S2x16x4096x128 .f32 := broadcastInDim S2x16x4096x128 ![] bcast_S_S2x16x4096x128 main_cst
  let main_v2 : IVec S2x16x4096x128 1 := cmpf .olt main_v0 main_v1
  let main_c : IVec S_ 1 := constantI S_ 1 1#1
  let main_v3 : IVec S_ 1 := (fun x v => Host.reduce IntOp.andi x v reducesTo_S2x16x4096x128_S_d0_1_2_3 h_S_) main_v2 main_c
  let main_v4 : FVec F S2x16x4096x128 .f32 := Host.absf main_arg1
  let main_cst_0 : FVec F S_ .f32 := constant S_ .f32 0x7F800000#32
  let main_v5 : FVec F S2x16x4096x128 .f32 := broadcastInDim S2x16x4096x128 ![] bcast_S_S2x16x4096x128 main_cst_0
  let main_v6 : IVec S2x16x4096x128 1 := cmpf .olt main_v4 main_v5
  let main_c_1 : IVec S_ 1 := constantI S_ 1 1#1
  let main_v7 : IVec S_ 1 := (fun x v => Host.reduce IntOp.andi x v reducesTo_S2x16x4096x128_S_d0_1_2_3 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S2x16x4096x128 : Shape := ⟨4, ![2, 16, 4096, 128]⟩
abbrev S256x128 : Shape := ⟨2, ![256, 128]⟩
abbrev S32x4096x128 : Shape := ⟨3, ![32, 4096, 128]⟩
abbrev S128x256 : Shape := ⟨2, ![128, 256]⟩
abbrev S32x4096 : Shape := ⟨2, ![32, 4096]⟩
abbrev S2x16x4096 : Shape := ⟨3, ![2, 16, 4096]⟩
abbrev S32x256x128 : Shape := ⟨3, ![32, 256, 128]⟩
abbrev S32x256 : Shape := ⟨2, ![32, 256]⟩
abbrev S8192x128 : Shape := ⟨2, ![8192, 128]⟩
abbrev S8192x256 : Shape := ⟨2, ![8192, 256]⟩
abbrev S32x256x256 : Shape := ⟨3, ![32, 256, 256]⟩

abbrev nBuf : Space → Nat
  | .hbm => 9
  | .vmem => 8
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S256x128, .f32⟩
  | .hbm, ⟨3, _⟩ => ⟨S32x4096x128, .f32⟩
  | .hbm, ⟨4, _⟩ => ⟨S32x4096x128, .f32⟩
  | .hbm, ⟨5, _⟩ => ⟨S128x256, .f32⟩
  | .hbm, ⟨6, _⟩ => ⟨S128x256, .bf16⟩
  | .hbm, ⟨7, _⟩ => ⟨S32x4096, .f32⟩
  | .hbm, ⟨8, _⟩ => ⟨S2x16x4096, .f32⟩
  | .local _ .vmem, ⟨0, _⟩ => ⟨S32x256x128, .f32⟩
  | .local _ .vmem, ⟨1, _⟩ => ⟨S32x256x128, .f32⟩
  | .local _ .vmem, ⟨2, _⟩ => ⟨S32x256x128, .f32⟩
  | .local _ .vmem, ⟨3, _⟩ => ⟨S32x256x128, .f32⟩
  | .local _ .vmem, ⟨4, _⟩ => ⟨S128x256, .f32⟩
  | .local _ .vmem, ⟨5, _⟩ => ⟨S128x256, .bf16⟩
  | .local _ .vmem, ⟨6, _⟩ => ⟨S32x256, .f32⟩
  | .local _ .vmem, ⟨7, _⟩ => ⟨S32x256, .f32⟩
  | _, _ => ⟨S2x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x16x4096x128_S32x4096x128 : S2x16x4096x128.ShapeCasts S32x4096x128
  transposes_S256x128_S128x256_1_0 : S256x128.Transposes [1, 0] S128x256
  bitsLt_bf16_f32 : FTy.bits .bf16 < FTy.bits .f32
  shapeCasts_S32x4096_S2x16x4096 : S32x4096.ShapeCasts S2x16x4096
  inb_S32x256x128_S32x256x128_0_0_0 : ∀ a, (![0, 0, 0] : Fin 3 → Nat) a + S32x256x128.size a ≤ S32x256x128.size a
  h_S32x256x128 : 0 < S32x256x128.numel
  shapeCasts_S32x256x128_S32x256x128 : S32x256x128.ShapeCasts S32x256x128
  shapeCasts_S32x256x128_S8192x128 : S32x256x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S8192x256_S32x256x256 : S8192x256.ShapeCasts S32x256x256
  reduces_S32x256x256_S32x256 : S32x256x256.Reduces [2] S32x256
  inb_S32x256_S32x256_0_0 : ∀ a, (![0, 0] : Fin 2 → Nat) a + S32x256.size a ≤ S32x256.size a
  h_S32x256 : 0 < S32x256.numel
  dot_S8192x128_S128x256_S8192x256_1_0_0_1_n_n_wf : DotDims.WF S8192x128 S128x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S32x4096x128.size a
  hwx0_0 : ∀ i : grid0.Coords, EltTy.bits .f32 = 32 ∨ (Rect.block (s := S32x4096x128) S32x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x128.size a ≤ S32x4096x128.size a
  hwx0_1 : ∀ i : grid0.Coords, EltTy.bits .f32 = 32 ∨ (Rect.block (s := S32x4096x128) S32x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x4096.size a
  hwx0_4 : ∀ i : grid0.Coords, EltTy.bits .f32 = 32 ∨ (Rect.block (s := S32x4096) S32x256.size (cc0_transform_4 i) (hinb0_4 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

abbrev win0_0 : Pipeline.Window sig grid0 :=
  Pipeline.Window.ofSpec (Memref.whole main_call0_v0) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S32x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x4096x128 : Shape := ⟨4, ![2, 16, 4096, 128]⟩
abbrev S256x128 : Shape := ⟨2, ![256, 128]⟩
abbrev S2x16x4096x256 : Shape := ⟨4, ![2, 16, 4096, 256]⟩
abbrev S_ : Shape := ⟨0, ![]⟩
abbrev S2x16x4096 : Shape := ⟨3, ![2, 16, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S256x128, .f32⟩
  | .hbm, ⟨3, _⟩ => ⟨S2x16x4096x256, .f32⟩
  | .hbm, ⟨4, _⟩ => ⟨S2x16x4096x256, .f32⟩
  | .hbm, ⟨5, _⟩ => ⟨S2x16x4096x256, .f32⟩
  | .hbm, ⟨6, _⟩ => ⟨S2x16x4096x256, .f32⟩
  | .hbm, ⟨7, _⟩ => ⟨S_, .f32⟩
  | .hbm, ⟨8, _⟩ => ⟨S2x16x4096, .f32⟩
  | .hbm, ⟨9, _⟩ => ⟨S_, .f32⟩
  | .hbm, ⟨10, _⟩ => ⟨S2x16x4096, .f32⟩
  | .hbm, ⟨11, _⟩ => ⟨S2x16x4096, .f32⟩
  | _, _ => ⟨S2x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S2x16x4096x256_S2x16x4096_d3 : S2x16x4096x256.ReducesTo [3] S2x16x4096
  h_S_ : 0 < S_.numel
  bcast_S_S2x16x4096 : S_.BroadcastsInDim S2x16x4096 (![] : Fin 0 → Fin S2x16x4096.rank)
  dot_S2x16x4096x128_S256x128_S2x16x4096x256_3_1_012_0_n_n_wf : DotDims.WF S2x16x4096x128 S256x128 S2x16x4096x256 [3] [1] [0, 1, 2] [0] [] []

variable [Facts₀]

def dot_S2x16x4096x128_S256x128_S2x16x4096x256_3_1_012_0_n_n : DotDims S2x16x4096x128 S256x128 S2x16x4096x256 where
  lhsContracting := [3]
  rhsContracting := [1]
  lhsNonContracting := [0, 1, 2]
  rhsNonContracting := [0]
  lhsBatch := []
  rhsBatch := []
  wf := dot_S2x16x4096x128_S256x128_S2x16x4096x256_3_1_012_0_n_n_wf

class Facts : Prop extends Facts₀ where

variable [Facts]
-- ==== Proof.Estimate.lean ====
/-
  The sign-sketch estimate of inner products, as ONE function of the three argument arrays.

  `q` and `k` hold 2 × 16 × 4096 rows of 128 numbers; `s` holds 256 directions of 128 numbers. Row `(b, h, t)` of `x`
  projected on direction `m` is `proj x s b h t m = ∑ d, x (b, h, t, d) · s (m, d)`. The estimate at `(b, h, t)` is

      c · ∑ m, proj q s b h t m · sign (proj k s b h t m)

  with `c` the one float constant both programs multiply by (the same 32-bit word on both sides, never evaluated) and
  `sign` the sign on the extended reals: `-1` below zero, `0` at zero, `1` above, the infinities included.
  Both programs compute exactly this expression: only the arrangement of the rows differs (the kernel flattens
  `(b, h)` to one axis of 32 and walks the 4096 rows in 16 blocks of 256), so no algebraic law beyond re-indexing is
  needed and finiteness of the inputs is never used.
-/
import Idealize.ShloMosaic.PureOps.Ideal
import Idealize.ShloMosaic.PureOps.Ideal.Laws
import Idealize.ShloMosaic.Lib.ValueIdx

noncomputable section

namespace Cert.SignSketch

open Idealize.ShloMosaic Idealize.ShloMosaic.ValueIdx

/-- The shape of the row arrays `q` and `k`. -/
abbrev Rows : Shape := ⟨4, ![2, 16, 4096, 128]⟩
/-- The shape of the direction array `s`. -/
abbrev Dirs : Shape := ⟨2, ![256, 128]⟩
/-- The shape of the result. -/
abbrev Out : Shape := ⟨3, ![2, 16, 4096]⟩

/-- Row `(b, h, t)` of `x` projected on direction `m` of `s`. -/
def proj (x : Rows.Idx → EReal) (s : Dirs.Idx → EReal) (b : Fin 2) (h : Fin 16) (t : Fin 4096) (m : Fin 256) : EReal :=
  ∑ d : Fin 128, x (ix4 b h t d) * s (ix2 m d)

/-- The estimate at `(b, h, t)`: the constant times the sum over the 256 directions of the query's projection times the
    sign of the key's projection. -/
def estimateAt (q k : Rows.Idx → EReal) (s : Dirs.Idx → EReal) (b : Fin 2) (h : Fin 16) (t : Fin 4096) : EReal :=
  Ideal.ofBits .f32 0x3BA06C99#32 * ∑ m : Fin 256, proj q s b h t m * Ideal.sign (proj k s b h t m)

/-- The estimate as an array. -/
def estimate (q k : Rows.Idx → EReal) (s : Dirs.Idx → EReal) : Out.Idx → EReal :=
  fun i => estimateAt q k s (i 0) (i 1) (i 2)

theorem estimate_ix3 (q k : Rows.Idx → EReal) (s : Dirs.Idx → EReal) (b : Fin 2) (h : Fin 16) (t : Fin 4096) :
    estimate q k s (ix3 b h t) = estimateAt q k s b h t := rfl

end Cert.SignSketch

end
-- ==== Proof.ReferenceEstimate.lean ====
/-
  The reference computes the estimate.

  Read one operation at a time, the reference's result at `(b, h, t)` is the constant times (zero plus) the sum over
  directions `m` of the two contractions' product, the key's contraction under the sign. Each contraction reads the row
  array at `(b, h, t, d)` and the direction array at `(m, d)`: that is `proj`, so the whole is `estimateAt`.
-/
import proofs.«127957_j42700564857503_2_alg».proof.Proof.Gen.ReferenceIdeal.Read
import proofs.«127957_j42700564857503_2_alg».proof.Proof.Estimate

noncomputable section

namespace Cert.SignSketch

open Idealize.ShloMosaic Idealize.ShloMosaic.ValueIdx
open Cert.ReferenceIdeal Cert.ReferenceIdeal.Read

/-- The row array's index the reference's contractions read at result index `(b, h, t)`, direction `m`, position `d`. -/
theorem rowIdx_q (b : Fin 2) (h : Fin 16) (t : Fin 4096) (m : Fin 256) (d : Fin 128) :
    lidx_main_v2 (idx_main_v4 (ix3 b h t) m) d = ix4 b h t d :=
  funext fun a => Fin.ext (by match a with | ⟨0, _⟩ => rfl | ⟨1, _⟩ => rfl | ⟨2, _⟩ => rfl | ⟨3, _⟩ => rfl)

theorem rowIdx_k (b : Fin 2) (h : Fin 16) (t : Fin 4096) (m : Fin 256) (d : Fin 128) :
    lidx_main_v0 (idx_main_v4 (ix3 b h t) m) d = ix4 b h t d :=
  funext fun a => Fin.ext (by match a with | ⟨0, _⟩ => rfl | ⟨1, _⟩ => rfl | ⟨2, _⟩ => rfl | ⟨3, _⟩ => rfl)

/-- The direction array's index they read there. -/
theorem dirIdx_q (b : Fin 2) (h : Fin 16) (t : Fin 4096) (m : Fin 256) (d : Fin 128) :
    ridx_main_v2 (idx_main_v4 (ix3 b h t) m) d = ix2 m d :=
  funext fun a => Fin.ext (by match a with | ⟨0, _⟩ => rfl | ⟨1, _⟩ => rfl)

theorem dirIdx_k (b : Fin 2) (h : Fin 16) (t : Fin 4096) (m : Fin 256) (d : Fin 128) :
    ridx_main_v0 (idx_main_v4 (ix3 b h t) m) d = ix2 m d :=
  funext fun a => Fin.ext (by match a with | ⟨0, _⟩ => rfl | ⟨1, _⟩ => rfl)

/-- The reference's result array is the estimate of its three arguments. -/
theorem reference_eq (q k : Rows.Idx → EReal) (s : Dirs.Idx → EReal) :
    val_main_v6 (F := Ideal) q k s = estimate q k s := by
  funext i
  obtain ⟨b, h, t, rfl⟩ : ∃ (b : Fin 2) (h : Fin 16) (t : Fin 4096), i = ix3 b h t := ⟨i 0, i 1, i 2, eq_ix3 i⟩
  rw [estimate_ix3, val_main_v6_apply, val_main_v5_apply, val_main_cst_0_apply, val_main_v4_apply, val_main_cst_apply]
  show Ideal.ofBits .f32 0x3BA06C99#32 * (Ideal.ofBits .f32 0x00000000#32 + _) = _
  rw [Ideal.ofBits_zero_f32, zero_add]
  unfold estimateAt
  refine congrArg (_ * ·) (Finset.sum_congr rfl fun m _ => ?_)
  rw [val_main_v3_apply, val_main_v1_apply, val_main_v2_apply, val_main_v0_apply]
  show (∑ d : Fin 128, _) * Ideal.sign (∑ d : Fin 128, _) = _
  unfold proj
  simp only [rowIdx_q, rowIdx_k, dirIdx_q, dirIdx_k]

end Cert.SignSketch

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.RowLayout.lean ====
/-
  Flattening the leading two axes of a block, read at an index.

  A block of 32 × 256 rows is handed to the matrix unit as 8192 rows: row `(r, c)` becomes row `r · 256 + c`, the
  trailing axis unchanged; the product's 8192 × 256 result is cut back to 32 × 256 × 256 the same way. Both are
  row-major re-readings, so each is the identity on positions.
-/
import Idealize.ShloMosaic.Lib.Pipeline.Value
import Idealize.ShloMosaic.Lib.ValueIdx

noncomputable section

namespace Cert.SignSketch

open Idealize.ShloMosaic Idealize.ShloMosaic.ValueIdx

/-- Row `(r, c)` of a 32 × 256 block of rows, as one of 8192 rows. -/
def flatRow (r : Fin 32) (c : Fin 256) : Fin 8192 := ⟨r.val * 256 + c.val, by have := r.isLt; have := c.isLt; omega⟩

theorem flatRow_val (r : Fin 32) (c : Fin 256) : (flatRow r c).val = r.val * 256 + c.val := rfl

variable {α : Type}

/-- A 32 × 256 × n block flattened to 8192 × n, read at row `flatRow r c`, is the block at `(r, c, ·)`. -/
theorem flatten_apply {n : Nat} (x : (⟨3, ![32, 256, n]⟩ : Shape).Idx → α)
    (h : (⟨3, ![32, 256, n]⟩ : Shape).ShapeCasts ⟨2, ![8192, n]⟩) (r : Fin 32) (c : Fin 256) (d : Fin n) :
    shapeCast ⟨2, ![8192, n]⟩ x h (ix2 (flatRow r c) d) = x (ix3 r c d) := by
  refine shapeCast_apply x h _ (ix3 r c d) ?_
  rw [Shape.rowMajor_val_three, Shape.rowMajor_val_two]
  rfl

/-- An 8192 × n array cut to 32 × 256 × n, read at `(r, c, ·)`, is the array at row `flatRow r c`. -/
theorem unflatten_apply {n : Nat} (y : (⟨2, ![8192, n]⟩ : Shape).Idx → α)
    (h : (⟨2, ![8192, n]⟩ : Shape).ShapeCasts ⟨3, ![32, 256, n]⟩) (r : Fin 32) (c : Fin 256) (d : Fin n) :
    shapeCast ⟨3, ![32, 256, n]⟩ y h (ix3 r c d) = y (ix2 (flatRow r c) d) := by
  refine shapeCast_apply y h _ (ix2 (flatRow r c) d) ?_
  rw [Shape.rowMajor_val_three, Shape.rowMajor_val_two]
  rfl

end Cert.SignSketch

end
-- ==== Proof.BodyValue.lean ====
/-
  What the kernel body stores, read at one position of its 32 × 256 output block.

  From a block `x` of query rows, a block `y` of key rows (each 32 × 256 rows of 128 numbers) and the two copies `u`, `v` of
  the transposed direction array (128 × 256), the body flattens each block to 8192 rows, multiplies it into the
  directions (an exact contraction into a zero accumulator: a plain sum over the 128 positions), cuts the two products back
  to 32 × 256 × 256, takes the sign of the key's product (as the kernel spells a sign: one with the operand's sign where
  the operand's magnitude is above zero, else the operand itself, which is `Ideal.sign` at every extended real), multiplies,
  sums over the 256 directions and scales by the constant. At position `(r, c)` that is

      c · ∑ m, (∑ d, x (r, c, d) · u (d, m)) · sign (∑ d, y (r, c, d) · v (d, m)).
-/
import proofs.«127957_j42700564857503_2_alg».proof.Proof.Gen.KernelIdeal.Skeleton
import proofs.«127957_j42700564857503_2_alg».proof.Proof.LibPlainDot
import proofs.«127957_j42700564857503_2_alg».proof.Proof.RowLayout
import Idealize.ShloMosaic.PureOps.Ideal.Laws
import Idealize.ShloMosaic.Lib.ValueIdx
import Idealize.ShloMosaic.Lib.Pipeline.Value

noncomputable section

namespace Cert.SignSketch

open Idealize.ShloMosaic Idealize.ShloMosaic.ValueIdx
open Cert.KernelIdeal Cert.KernelIdeal.Gen

/-- The body's matrix products are plain: rows × 128 against 128 × columns, no batch axis. -/
theorem dot_plain : PlainDot.IsPlain (P := 8192) (K := 128) (Q := 256) dot_S8192x128_S128x256_S8192x256_1_0_0_1_n_n :=
  ⟨rfl, rfl, rfl, rfl, rfl, rfl⟩

/-- The lane sum over the 256 directions, read at `(r, c)`: the sum over `m` of the source at `(r, c, m)`. -/
theorem laneSum_apply (src : FVec Ideal S32x256x256 .f32) (h : S32x256x256.Reduces [2] S32x256) (hφ : FKind.Formats .f32)
    (hacc : (0x00000000#32 : BitVec 32) = FKind.add.neutral .f32 hφ) (r : Fin 32) (c : Fin 256) :
    multiReduction .add [2] S32x256 src 0x00000000#32 h hφ hacc (ix2 r c) = ∑ m : Fin 256, src (ix3 r c m) := by
  refine (Ideal.multiReduction_add_single src 0x00000000#32 h hφ hacc (ix2 r c)).trans ?_
  refine Finset.sum_congr rfl fun m _ => congrArg src ?_
  funext a
  apply Fin.ext
  match a with
  | ⟨0, _⟩ => rfl
  | ⟨1, _⟩ => rfl
  | ⟨2, _⟩ => rfl

/-- A block of rows flattened and multiplied into the directions, then cut back: at `(r, c, m)` the sum over the 128
    positions of the block at `(r, c, d)` times the directions at `(d, m)`. -/
theorem product_apply {φ₁ φ₂ : FTy} (x : FVec Ideal S8192x128 φ₁) (u : FVec Ideal S128x256 φ₂) (r : Fin 32) (c : Fin 256) (m : Fin 256) :
    shapeCast S32x256x256 (matmul dot_S8192x128_S128x256_S8192x256_1_0_0_1_n_n none x u (constant S8192x256 .f32 0x00000000#32))
        shapeCasts_S8192x256_S32x256x256 (ix3 r c m)
      = ∑ d : Fin 128, x (ix2 (flatRow r c) d) * u (ix2 d m) := by
  refine (unflatten_apply _ shapeCasts_S8192x256_S32x256x256 r c m).trans ?_
  exact PlainDot.matmul_zero_apply dot_plain x u (flatRow r c) m

/-- The query block's product at `(r, c, m)`: the block is rounded to the narrow format on the way in, which changes nothing
    at the exact values. -/
theorem queryProduct_apply (x : FVec Ideal S32x256x128 .f32) (u : FVec Ideal S128x256 .bf16) (r : Fin 32) (c m : Fin 256) :
  shapeCast S32x256x256
      (matmul dot_S8192x128_S128x256_S8192x256_1_0_0_1_n_n none
        (truncf FTy.bf16
          (shapeCast S8192x128 (shapeCast S32x256x128 x shapeCasts_S32x256x128_S32x256x128)
            shapeCasts_S32x256x128_S8192x128)
          bitsLt_bf16_f32)
        (shapeCast S128x256 u shapeCasts_S128x256_S128x256) (constant S8192x256 FTy.f32 0x00000000#32))
      shapeCasts_S8192x256_S32x256x256 (ix3 r c m) =
    ∑ d : Fin 128, x (ix3 r c d) * u (ix2 d m) := by
  refine (product_apply (φ₁ := .bf16) (φ₂ := .bf16) (truncf FTy.bf16
          (shapeCast S8192x128 (shapeCast S32x256x128 x shapeCasts_S32x256x128_S32x256x128)
            shapeCasts_S32x256x128_S8192x128)
          bitsLt_bf16_f32) (shapeCast S128x256 u shapeCasts_S128x256_S128x256) r c m).trans ?_
  refine Finset.sum_congr rfl fun d _ => ?_
  rw [shapeCast_self, shapeCast_self]
  refine congrArg (fun a : EReal => a * u (ix2 d m)) ?_
  exact flatten_apply x shapeCasts_S32x256x128_S8192x128 r c d

/-- The key block's product at `(r, c, m)`. -/
theorem keyProduct_apply (y : FVec Ideal S32x256x128 .f32) (v : FVec Ideal S128x256 .f32) (r : Fin 32) (c m : Fin 256) :
  shapeCast S32x256x256
      (matmul dot_S8192x128_S128x256_S8192x256_1_0_0_1_n_n none
          (shapeCast S8192x128 (shapeCast S32x256x128 y shapeCasts_S32x256x128_S32x256x128)
            shapeCasts_S32x256x128_S8192x128)
        (shapeCast S128x256 v shapeCasts_S128x256_S128x256) (constant S8192x256 FTy.f32 0x00000000#32))
      shapeCasts_S8192x256_S32x256x256 (ix3 r c m) =
    ∑ d : Fin 128, y (ix3 r c d) * v (ix2 d m) := by
  refine (product_apply (φ₁ := .f32) (φ₂ := .f32)
          (shapeCast S8192x128 (shapeCast S32x256x128 y shapeCasts_S32x256x128_S32x256x128)
            shapeCasts_S32x256x128_S8192x128) (shapeCast S128x256 v shapeCasts_S128x256_S128x256) r c m).trans ?_
  refine Finset.sum_congr rfl fun d _ => ?_
  rw [shapeCast_self, shapeCast_self]
  refine congrArg (fun a : EReal => a * v (ix2 d m)) ?_
  exact flatten_apply y shapeCasts_S32x256x128_S8192x128 r c d

/-- THE BODY'S STORED VALUE at position `(r, c)` of the output block. -/
theorem body_apply (x y : FVec Ideal S32x256x128 .f32) (u : FVec Ideal S128x256 .bf16) (v : FVec Ideal S128x256 .f32)
    (r : Fin 32) (c : Fin 256) :
    k0_pay1 (F := Ideal) x y u v (ix2 r c)
      = Ideal.ofBits .f32 0x3BA06C99#32
          * ∑ m : Fin 256, (∑ d : Fin 128, x (ix3 r c d) * u (ix2 d m)) * Ideal.sign (∑ d : Fin 128, y (ix3 r c d) * v (ix2 d m)) := by
  unfold k0_pay1
  dsimp only
  refine (mulf_apply _ _ _).trans ?_
  refine congrArg (fun z : EReal => Ideal.ofBits .f32 0x3BA06C99#32 * z) ?_
  refine (laneSum_apply _ _ _ _ r c).trans ?_
  refine Finset.sum_congr rfl fun m _ => ?_
  refine (mulf_apply _ _ _).trans ?_
  refine congrArg₂ (fun a b : EReal => a * b) ?_ ?_
  · exact queryProduct_apply x u r c m
  · refine (Ideal.jnp_sign_eq_sign_f32 _).trans ?_
    exact congrArg Ideal.sign (keyProduct_apply y v r c m)

end Cert.SignSketch

end
-- ==== Proof.FlatEstimate.lean ====
/-
  The estimate in the kernel's arrangement, and why it is the same numbers.

  The kernel sees the row arrays with the two leading axes merged — `(b, h)` is row group `b · 16 + h` of 32 — and the
  direction array transposed to 128 × 256; it produces a 32 × 4096 array that is split back to 2 × 16 × 4096. Merging
  and splitting are row-major re-readings (the identity on positions) and the transpose swaps the two coordinates, so the
  flat estimate of the re-laid arrays, split back, is the estimate of the arrays as given, entry by entry.
-/
import proofs.«127957_j42700564857503_2_alg».proof.Proof.Estimate
import Idealize.ShloMosaic.Lib.Pipeline.Value
import Idealize.ShloMosaic.Lib.ValueLayout
import Idealize.ShloMosaic.Lib.ValueIdx

noncomputable section

namespace Cert.SignSketch

open Idealize.ShloMosaic Idealize.ShloMosaic.ValueIdx

/-- The row arrays with the leading axes merged. -/
abbrev FlatRows : Shape := ⟨3, ![32, 4096, 128]⟩
/-- The direction array transposed. -/
abbrev DirsT : Shape := ⟨2, ![128, 256]⟩
/-- The kernel's result array. -/
abbrev FlatOut : Shape := ⟨2, ![32, 4096]⟩

/-- Row group `(b, h)` as one of 32. -/
def group (b : Fin 2) (h : Fin 16) : Fin 32 := ⟨b.val * 16 + h.val, by have := b.isLt; have := h.isLt; omega⟩

/-- The estimate at row `T` of row group `R`, from merged row arrays `Q`, `K` and transposed directions `U` (met by the
    query) and `W` (met by the key). -/
def flatEstimateAt (Q K : FlatRows.Idx → EReal) (U W : DirsT.Idx → EReal) (R : Fin 32) (T : Fin 4096) : EReal :=
  Ideal.ofBits .f32 0x3BA06C99#32
    * ∑ m : Fin 256, (∑ d : Fin 128, Q (ix3 R T d) * U (ix2 d m)) * Ideal.sign (∑ d : Fin 128, K (ix3 R T d) * W (ix2 d m))

/-- As an array. -/
def flatEstimate (Q K : FlatRows.Idx → EReal) (U W : DirsT.Idx → EReal) : FlatOut.Idx → EReal :=
  fun i => flatEstimateAt Q K U W (i 0) (i 1)

theorem flatEstimate_ix2 (Q K : FlatRows.Idx → EReal) (U W : DirsT.Idx → EReal) (R : Fin 32) (T : Fin 4096) :
    flatEstimate Q K U W (ix2 R T) = flatEstimateAt Q K U W R T := rfl

variable {α : Type}

/-- The leading axes merged: row group `group b h` reads the array at `(b, h, ·, ·)`. -/
theorem merge_apply (x : Rows.Idx → α) (hc : Rows.ShapeCasts FlatRows) (b : Fin 2) (h : Fin 16) (t : Fin 4096) (d : Fin 128) :
    shapeCast FlatRows x hc (ix3 (group b h) t d) = x (ix4 b h t d) := by
  refine shapeCast_apply x hc _ (ix4 b h t d) ?_
  rw [Shape.rowMajor_val_four, Shape.rowMajor_val_three]
  rfl

/-- The result split back: `(b, h, t)` reads the flat array at row `t` of row group `group b h`. -/
theorem split_apply (y : FlatOut.Idx → α) (hc : FlatOut.ShapeCasts Out) (b : Fin 2) (h : Fin 16) (t : Fin 4096) :
    shapeCast Out y hc (ix3 b h t) = y (ix2 (group b h) t) := by
  refine shapeCast_apply y hc _ (ix2 (group b h) t) ?_
  rw [Shape.rowMajor_val_three, Shape.rowMajor_val_two]
  rfl

/-- The directions transposed: position `(d, m)` reads the array at `(m, d)`. -/
theorem transposed_apply (s : Dirs.Idx → α) (ht : Dirs.Transposes [1, 0] DirsT) (d : Fin 128) (m : Fin 256) :
    transpose DirsT [1, 0] s ht (ix2 d m) = s (ix2 m d) :=
  transpose_ix2_apply s ht d m

/-- THE TWO ARRANGEMENTS AGREE: the flat estimate of the merged row arrays and the transposed directions, split back, is the
    estimate. -/
theorem split_flatEstimate (q k : Rows.Idx → EReal) (s : Dirs.Idx → EReal) (hm : Rows.ShapeCasts FlatRows)
    (ht : Dirs.Transposes [1, 0] DirsT) (hs : FlatOut.ShapeCasts Out) :
    shapeCast Out (flatEstimate (shapeCast FlatRows q hm) (shapeCast FlatRows k hm) (transpose DirsT [1, 0] s ht)
        (transpose DirsT [1, 0] s ht)) hs
      = estimate q k s := by
  funext i
  obtain ⟨b, h, t, rfl⟩ : ∃ (b : Fin 2) (h : Fin 16) (t : Fin 4096), i = ix3 b h t := ⟨i 0, i 1, i 2, eq_ix3 i⟩
  rw [split_apply, flatEstimate_ix2, estimate_ix3]
  unfold flatEstimateAt estimateAt proj
  simp only [merge_apply]
  refine congrArg (fun z : EReal => Ideal.ofBits .f32 0x3BA06C99#32 * z) (Finset.sum_congr rfl fun m _ => ?_)
  refine congrArg₂ (fun a b : EReal => a * b) (Finset.sum_congr rfl fun d _ => ?_)
    (congrArg Ideal.sign (Finset.sum_congr rfl fun d _ => ?_))
  · exact congrArg (fun z : EReal => q (ix4 b h t d) * z) (transposed_apply s ht d m)
  · exact congrArg (fun z : EReal => k (ix4 b h t d) * z) (transposed_apply s ht d m)

end Cert.SignSketch

end
-- ==== Proof.KernelArray.lean ====
/-
  The kernel's result array after the run, as one function of the arrays the region finds.

  The region finds the two row arrays with their leading axes merged (32 × 4096 × 128) and the direction array
  transposed (128 × 256, in two copies). Grid point `t` of 16 takes rows `256 t … 256 t + 255` of every row group —
  block index `(0, t, 0)` of the row arrays, `(0, t)` of the result, the directions whole — so position `(r, c)` of its
  blocks is row `256 t + c` of row group `r`, and what it writes back there is the flat estimate at that row. The 16
  blocks cover all 4096 rows (row `T` lies in block `T / 256`), so the array ends as the flat estimate everywhere.
-/
import proofs.«127957_j42700564857503_2_alg».proof.Proof.Gen.KernelIdeal.Frame
import proofs.«127957_j42700564857503_2_alg».proof.Proof.BodyValue
import proofs.«127957_j42700564857503_2_alg».proof.Proof.FlatEstimate
import Idealize.ShloMosaic.Lib.Pipeline.Value
import Idealize.ShloMosaic.Lib.StableHlo.Run

noncomputable section

namespace Cert.SignSketch

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## What the region finds -/

/-- The query rows as the region finds them: the argument with its leading axes merged. -/
theorem entry_q (c : Dev nD) :
    (V m c main_call0_v0 : S32x4096x128.Idx → EReal)
      = shapeCast S32x4096x128 (m ((c : Thread nD τ).loc main_arg0)) shapeCasts_S2x16x4096x128_S32x4096x128 := by
  show StableHlo.after hostOps0 (fun b => m (c, b)) (Proc.devRef .tc main_call0_v0) = _
  after_results
  rfl

/-- The key rows likewise. -/
theorem entry_k (c : Dev nD) :
    (V m c main_call0_v1 : S32x4096x128.Idx → EReal)
      = shapeCast S32x4096x128 (m ((c : Thread nD τ).loc main_arg1)) shapeCasts_S2x16x4096x128_S32x4096x128 := by
  show StableHlo.after hostOps0 (fun b => m (c, b)) (Proc.devRef .tc main_call0_v1) = _
  after_results
  rfl

/-- The directions the key meets: the argument transposed. -/
theorem entry_w (c : Dev nD) :
    (V m c main_call0_v2 : S128x256.Idx → EReal)
      = transpose S128x256 [1, 0] (m ((c : Thread nD τ).loc main_arg2)) transposes_S256x128_S128x256_1_0 := by
  show StableHlo.after hostOps0 (fun b => m (c, b)) (Proc.devRef .tc main_call0_v2) = _
  after_results
  rfl

/-- The directions the query meets: the same, the change of format being the identity on exact values. -/
theorem entry_u (c : Dev nD) :
    (V m c main_call0_v3 : S128x256.Idx → EReal)
      = transpose S128x256 [1, 0] (m ((c : Thread nD τ).loc main_arg2)) transposes_S256x128_S128x256_1_0 := by
  show StableHlo.after hostOps0 (fun b => m (c, b)) (Proc.devRef .tc main_call0_v3) = _
  after_results
  rfl

/-! ## The blocks -/

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: point `t` takes block `(0, t, 0)` of each row array and block `(0, t)` of the
    result; the directions are one block. -/
theorem idx_facts : ∀ t : Fin cfg0.N,
    win0_4.index t (0 : Fin 2) = 0 ∧ win0_4.index t (1 : Fin 2) = t.val
    ∧ win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `c` of block `t`, as one of the 4096 rows. -/
def blockRow (t : Nat) (ht : t < 16) (c : Fin 256) : Fin 4096 := ⟨t * 256 + c.val, by have := c.isLt; omega⟩

/-- THE BODY'S VALUE AT A POINT, from what its blocks hold: if position `(r, c, ·)` of the row blocks is row `T` of row group
    `r` of the arrays and the direction blocks are the direction arrays, the body stores the flat estimate at `(r, T)`. -/
theorem point_value (x y : FVec Ideal S32x256x128 .f32) (u : FVec Ideal S128x256 .bf16) (v : FVec Ideal S128x256 .f32)
    (Q K : FlatRows.Idx → EReal) (U W : DirsT.Idx → EReal) (r : Fin 32) (c : Fin 256) (T : Fin 4096)
    (hx : ∀ d : Fin 128, x (ix3 r c d) = Q (ix3 r T d)) (hy : ∀ d : Fin 128, y (ix3 r c d) = K (ix3 r T d))
    (hu : ∀ (d : Fin 128) (n : Fin 256), u (ix2 d n) = U (ix2 d n)) (hv : ∀ (d : Fin 128) (n : Fin 256), v (ix2 d n) = W (ix2 d n)) :
    k0_pay1 (F := Ideal) x y u v (ix2 r c) = flatEstimateAt Q K U W r T := by
  rw [body_apply]
  unfold flatEstimateAt
  simp only [hx, hy, hu, hv]

/-- WHAT POINT `t` WRITES BACK is block `t` of the flat estimate of the arrays the region finds. -/
theorem flushed_eq (c : Dev nD) (t : Fin cfg0.N) :
    (dats m 0 c).flushed 4 t
      = ((cfg0.win 4).blk t).view.read (Elt Ideal)
          (flatEstimate (V m c main_call0_v0) (V m c main_call0_v1) (V m c main_call0_v3) (V m c main_call0_v2)) := by
  show (cfg0.win 4).cut (grid0.coords t) ((dats m 0 c).after 4 t) = _
  rw [after0_4]
  unfold out0_4
  rw [View.canon_unit_zero zero2]
  simp only [View.ld_unit_zero (S := S32x256x128) zero3, View.ld_unit_zero (S := S128x256) zero2]
  obtain ⟨e0, e1, e2, e3, e4, e5, e6, e7, e8, e9, e10, e11⟩ := idx_facts t
  have ht : t.val < 16 := by have h1 : t.val < cfg0.N := t.isLt; have hN : cfg0.N = 16 := N_0; omega
  funext j
  obtain ⟨r, cc, rfl⟩ : ∃ (r : Fin 32) (cc : Fin 256), j = ix2 r cc := ⟨j 0, j 1, eq_ix2 j⟩
  show k0_pay1 (iblk m c 0 t) (iblk m c 1 t) (iblk m c 3 t) (iblk m c 2 t) (ix2 r cc)
    = flatEstimate (V m c main_call0_v0) (V m c main_call0_v1) (V m c main_call0_v3) (V m c main_call0_v2)
        (((cfg0.win 4).blk t).view.emb (ix2 r cc))
  have hi : ((cfg0.win 4).blk t).view.emb (ix2 r cc) = ix2 r (blockRow t.val ht cc) := by
    funext a; apply Fin.ext
    match a with
    | ⟨0, _⟩ => show win0_4.index t (0 : Fin 2) * 32 + 1 * r.val = r.val; omega
    | ⟨1, _⟩ => show win0_4.index t (1 : Fin 2) * 256 + 1 * cc.val = t.val * 256 + cc.val; omega
  rw [hi, flatEstimate_ix2]
  refine point_value _ _ _ _ _ _ _ _ r cc (blockRow t.val ht cc) ?_ ?_ ?_ ?_
  · intro d
    show V m c main_call0_v0 (((cfg0.win 0).blk t).view.emb (ix3 r cc d)) = V m c main_call0_v0 (ix3 r (blockRow t.val ht cc) d)
    have h0 : ((cfg0.win 0).blk t).view.emb (ix3 r cc d) = ix3 r (blockRow t.val ht cc) d := by
      funext a; apply Fin.ext
      match a with
      | ⟨0, _⟩ => show win0_0.index t (0 : Fin 3) * 32 + 1 * r.val = r.val; omega
      | ⟨1, _⟩ => show win0_0.index t (1 : Fin 3) * 256 + 1 * cc.val = t.val * 256 + cc.val; omega
      | ⟨2, _⟩ => show win0_0.index t (2 : Fin 3) * 128 + 1 * d.val = d.val; omega
    rw [h0]
  · intro d
    show V m c main_call0_v1 (((cfg0.win 1).blk t).view.emb (ix3 r cc d)) = V m c main_call0_v1 (ix3 r (blockRow t.val ht cc) d)
    have h1 : ((cfg0.win 1).blk t).view.emb (ix3 r cc d) = ix3 r (blockRow t.val ht cc) d := by
      funext a; apply Fin.ext
      match a with
      | ⟨0, _⟩ => show win0_1.index t (0 : Fin 3) * 32 + 1 * r.val = r.val; omega
      | ⟨1, _⟩ => show win0_1.index t (1 : Fin 3) * 256 + 1 * cc.val = t.val * 256 + cc.val; omega
      | ⟨2, _⟩ => show win0_1.index t (2 : Fin 3) * 128 + 1 * d.val = d.val; omega
    rw [h1]
  · intro d n
    show V m c main_call0_v3 (((cfg0.win 3).blk t).view.emb (ix2 d n)) = V m c main_call0_v3 (ix2 d n)
    have h3 : ((cfg0.win 3).blk t).view.emb (ix2 d n) = ix2 d n := by
      funext a; apply Fin.ext
      match a with
      | ⟨0, _⟩ => show win0_3.index t (0 : Fin 2) * 128 + 1 * d.val = d.val; omega
      | ⟨1, _⟩ => show win0_3.index t (1 : Fin 2) * 256 + 1 * n.val = n.val; omega
    rw [h3]
  · intro d n
    show V m c main_call0_v2 (((cfg0.win 2).blk t).view.emb (ix2 d n)) = V m c main_call0_v2 (ix2 d n)
    have h2 : ((cfg0.win 2).blk t).view.emb (ix2 d n) = ix2 d n := by
      funext a; apply Fin.ext
      match a with
      | ⟨0, _⟩ => show win0_2.index t (0 : Fin 2) * 128 + 1 * d.val = d.val; omega
      | ⟨1, _⟩ => show win0_2.index t (1 : Fin 2) * 256 + 1 * n.val = n.val; omega
    rw [h2]

/-! ## The cover -/

/-- An index of the result array is in point `t`'s block iff each coordinate is in the block's range on its axis. -/
theorem mem_blk (t : Fin cfg0.N) (i : S32x4096.Idx) :
    i ∈ ((cfg0.win 4).blk t).view.set
      ↔ ∀ a : Fin 2, win0_4.index t a * S32x256.size a ≤ (i a).val ∧ (i a).val < win0_4.index t a * S32x256.size a + S32x256.size a := by
  show i ∈ ((View.whole main_call0_v4).slice (win0_4.rect t)).set ↔ _
  rw [View.set_slice_whole, Rect.mem_set_unit]
  exact Iff.rfl

/-- Every index of the result array lies in the block of the point its row's quotient by 256 names. -/
theorem covered (i : S32x4096.Idx) :
    ∃ t : Fin cfg0.N, (cfg0.win 4).flush t = true ∧ i ∈ ((cfg0.win 4).blk t).view.set := by
  have hi0 : (i 0).val < 32 := (i 0).isLt
  have hi1 : (i 1).val < 4096 := (i 1).isLt
  have hN : grid0.N = 16 := N_0
  obtain ⟨t, htv⟩ : ∃ t : Fin cfg0.N, t.val = (i 1).val / 256 := ⟨⟨(i 1).val / 256, by show _ < grid0.N; omega⟩, rfl⟩
  obtain ⟨e0, e1, -⟩ := idx_facts t
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 256 ≤ (i 1).val ∧ (i 1).val < win0_4.index t (1 : Fin 2) * 256 + 256; omega

/-! ## The array after the run -/

/-- THE RESULT ARRAY after the run is the flat estimate of the arrays the region finds. -/
theorem final (c : Dev nD) :
    (dats m 0 c).arrAt 4 cfg0.N
      = flatEstimate (V m c main_call0_v0) (V m c main_call0_v1) (V m c main_call0_v3) (V m c main_call0_v2) :=
  (dats m 0 c).arrAt_eq_of_cover 4 _ (fun t _ => flushed_eq m c t) covered

end Cert.SignSketch

end
-- ==== Proof.KernelRun.lean ====
/-
  The idealized kernel's run, read back: its result array is the estimate of its arguments.

  After the region one host line splits the result's leading axis of 32 back into 2 × 16. The region leaves the flat
  estimate of the merged row arrays and the transposed directions (the array after the run); split back, that is the
  estimate of the arguments themselves, because merging, splitting and transposing only re-read positions.
-/
import proofs.«127957_j42700564857503_2_alg».proof.Proof.KernelArray

noncomputable section

namespace Cert.SignSketch

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's result buffer after the host line that follows the region: the region's result array, its leading axis
    split. -/
theorem tail_eq (c : Dev nD) :
    Pipeline.afterTail₀ cfgs (dats m) 0 (V0 m) [hostOps1] c main_v0
      = shapeCast S2x16x4096 ((dats m 0 c).arrAt 4 cfg0.N) shapeCasts_S32x4096_S2x16x4096 := by
  unfold Pipeline.afterTail₀
  show StableHlo.after hostOps1 _ (Proc.devRef .tc main_v0) = _
  after_results
  have e := Pipeline.withArrays_arr spec0 launch0.win.arr_inj c (V0 m c) (fun w => (dats m 0 c).arrAt w cfg0.N) 4
  funext i
  show shapeCast S2x16x4096 (Pipeline.withArrays spec0 c (V0 m c) (fun w => (dats m 0 c).arrAt w cfg0.N)
      (Proc.devRef .tc (Pipeline.arrRef spec0 4))) shapeCasts_S32x4096_S2x16x4096 i = _
  rw [e]

/-- THE RESULT: the estimate of the three arguments as launched. -/
theorem result_eq (c : Dev nD) :
    Pipeline.afterTail₀ cfgs (dats m) 0 (V0 m) [hostOps1] c main_v0
      = estimate (m ((c.tc : Thread nD τ).loc main_arg0)) (m ((c.tc : Thread nD τ).loc main_arg1))
          (m ((c.tc : Thread nD τ).loc main_arg2)) := by
  rw [tail_eq, final, entry_q, entry_k, entry_u, entry_w]
  exact split_flatEstimate _ _ _ _ _ _

/-- THE RUN of the idealized kernel: every weakly fair execution terminates, nothing faulting, with the result buffer at
    the estimate of the arguments and the arguments unchanged. -/
theorem kernel_run : θ_run defs (onTc (τ := τ) (main (F := Ideal))) ⟨m, fun _ => 0, ρ⟩ fun r => ∀ c : Dev nD,
      r.2.mem ((c.tc : Thread nD τ).loc main_v0)
        = estimate (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.SignSketch

end
-- ==== Proof.lean ====
/-
  The kernel computes a sign-sketch estimate of inner products: for 2 × 16 × 4096 query rows and key rows of 128
  numbers and 256 directions of 128 numbers, at each row the constant times the sum over directions of the query row's
  projection times the sign of the key row's projection. The reference computes the same expression with two
  contractions over whole arrays; the kernel merges the two leading axes, transposes the directions and walks the rows
  in 16 blocks of 256.

  At the exact values both programs are the SAME expression of the same entries — a contraction is a plain sum of
  products on both sides, a change of float format is the identity, the lane sum and the host's sum are the same sum,
  the lowered sign (one carrying the operand's sign where its magnitude is above zero, else the operand) is the sign on
  the extended reals, and the constant is one 32-bit word on both sides — so the two results agree entry by entry by
  re-indexing alone: no distributivity, no cancelling, and the finiteness of the inputs is never used.

  The modules: `Estimate` states the result as one function of the arguments; `ReferenceEstimate` reads the reference's
  run as that function; `BodyValue` reads what the kernel body stores at a position; `FlatEstimate` relates the kernel's
  arrangement to the arguments'; `KernelArray` assembles the 16 blocks into the result array; `KernelRun` reads the
  program's run. The one rewrite of the idealization (the sign bit read as "below zero") is its rule's statement.
-/
import proofs.«127957_j42700564857503_2_alg».proof.Defs
import proofs.«127957_j42700564857503_2_alg».proof.Proof.Gen.Kernel
import proofs.«127957_j42700564857503_2_alg».proof.Proof.Gen.Kernel.Skeleton
import proofs.«127957_j42700564857503_2_alg».proof.Proof.Gen.Kernel.Launch
import proofs.«127957_j42700564857503_2_alg».proof.Proof.Gen.Kernel.Points
import proofs.«127957_j42700564857503_2_alg».proof.Proof.Gen.Kernel.Frame
import proofs.«127957_j42700564857503_2_alg».proof.Proof.Gen.KernelIdeal
import proofs.«127957_j42700564857503_2_alg».proof.Proof.Gen.KernelIdeal.Skeleton
import proofs.«127957_j42700564857503_2_alg».proof.Proof.Gen.KernelIdeal.Launch
import proofs.«127957_j42700564857503_2_alg».proof.Proof.Gen.KernelIdeal.Points
import proofs.«127957_j42700564857503_2_alg».proof.Proof.Gen.KernelIdeal.Frame
import proofs.«127957_j42700564857503_2_alg».proof.Proof.Gen.ReferenceIdeal
import proofs.«127957_j42700564857503_2_alg».proof.Proof.Gen.ReferenceIdeal.Run
import proofs.«127957_j42700564857503_2_alg».proof.Proof.Gen.ReferenceIdeal.Read
import proofs.«127957_j42700564857503_2_alg».proof.Proof.Gen.Pre_finite_inputs
import proofs.«127957_j42700564857503_2_alg».proof.Proof.ReferenceEstimate
import proofs.«127957_j42700564857503_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- And the reference: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization's one rewrite: one carrying the operand's sign bit, read as minus one below zero and one otherwise. -/
theorem preserves : Cert.preserves_Kernel_KernelIdeal :=
  IdealRules.sign_bit.statement Cert.KernelIdeal.S32x256x256 .f32

/-- From memories that agree on the arguments both idealized programs end with the estimate of those arguments in their
    result buffers. -/
theorem algebraic : Cert.algebraic_KernelIdeal_ReferenceIdeal := by
  intro m ρ m' ρ' _ hagree
  refine ⟨fun c => Cert.SignSketch.estimate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.SignSketch.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.SignSketch.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
